-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x6400000 : Shape := ⟨2, ![2, 6400000]⟩
abbrev S2x16 : Shape := ⟨2, ![2, 16]⟩
abbrev S16 : Shape := ⟨1, ![16]⟩
abbrev S16x8 : Shape := ⟨2, ![16, 8]⟩
abbrev S8 : Shape := ⟨1, ![8]⟩
abbrev S8x1000 : Shape := ⟨2, ![8, 1000]⟩
abbrev S1000 : Shape := ⟨1, ![1000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1000 : S_.BroadcastsInDim S8x1000 (![] : Fin 0 → Fin S8x1000.rank)
  reducesTo_S8x1000_S_d0_1 : S8x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg5 : FVec F S8 .f32) (main_arg6 : FVec F S8x1000 .f32) (main_arg7 : FVec F S1000 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1000 .f32 := Host.absf main_arg6
  let main_cst_8 : FVec F S_ .f32 := constant S_ .f32 0x7F800000#32
  let main_v25 : FVec F S8x1000 .f32 := broadcastInDim S8x1000 ![] bcast_S_S8x1000 main_cst_8
  let main_v26 : IVec S8x1000 1 := cmpf .olt main_v24 main_v25
  let main_c_9 : IVec S_ 1 := constantI S_ 1 1#1
  let main_v27 : IVec S_ 1 := (fun x v => Host.reduce IntOp.andi x v reducesTo_S8x1000_S_d0_1 h_S_) main_v26 main_c_9
  let main_v28 : IVec S_ 1 := andi main_v23 main_v27
  let main_v29 : FVec F S1000 .f32 := Host.absf main_arg7
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S100000x2 .f32) (main_arg1 : IVec S2x6400000 32) (main_arg2 : FVec F S2x16 .f32) (main_arg3 : FVec F S16 .f32) (main_arg4 : FVec F S16x8 .f32) (main_arg5 : FVec F S8 .f32) (main_arg6 : FVec F S8x1000 .f32) (main_arg7 : FVec F S1000 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S100000x2 : Shape := ⟨2, ![100000, 2]⟩
abbrev S2x6400000 : Shape := ⟨2, ![2, 6400000]⟩
abbrev S2x16 : Shape := ⟨2, ![2, 16]⟩
abbrev S16 : Shape := ⟨1, ![16]⟩
abbrev S16x8 : Shape := ⟨2, ![16, 8]⟩
abbrev S8 : Shape := ⟨1, ![8]⟩
abbrev S8x1000 : Shape := ⟨2, ![8, 1000]⟩
abbrev S1000 : Shape := ⟨1, ![1000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x16 : Shape := ⟨2, ![100000, 16]⟩
abbrev S10000x2 : Shape := ⟨2, ![10000, 2]⟩
abbrev S10000x16 : Shape := ⟨2, ![10000, 16]⟩
abbrev S6400000x16 : Shape := ⟨2, ![6400000, 16]⟩
abbrev S100000x1 : Shape := ⟨2, ![100000, 1]⟩
abbrev S1x16 : Shape := ⟨2, ![1, 16]⟩
abbrev S100000x8 : Shape := ⟨2, ![100000, 8]⟩
abbrev S10000x8 : Shape := ⟨2, ![10000, 8]⟩
abbrev S6400000x8 : Shape := ⟨2, ![6400000, 8]⟩
abbrev S1x8 : Shape := ⟨2, ![1, 8]⟩
abbrev S1x1000 : Shape := ⟨2, ![1, 1000]⟩
abbrev S100000x1000 : Shape := ⟨2, ![100000, 1000]⟩
abbrev S2000x8 : Shape := ⟨2, ![2000, 8]⟩
abbrev S2000x1000 : Shape := ⟨2, ![2000, 1000]⟩

abbrev nBuf : Space → Nat
  | .hbm => 112
  | .vmem => 16
  | .smem => 0
  | _ => 0

abbrev bufTy : (tb : Table) → Fin (tcTables nBuf tb) → BufTy
  | .hbm, ⟨0, _⟩ => ⟨S100000x2, .f32⟩
  | .hbm, ⟨1, _⟩ => ⟨S2x6400000, .i32⟩
  | .hbm, ⟨2, _⟩ => ⟨S2x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1000, .f32⟩
  | .hbm, ⟨7, _⟩ => ⟨S1000, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S100000, .f32⟩
  | .hbm, ⟨16, _⟩ => ⟨S6400000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x16, .f32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000, .f32⟩
  | .hbm, ⟨41, _⟩ => ⟨S6400000, .f32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S6400000x16, .f32⟩
  | .hbm, ⟨51, _⟩ => ⟨S6400000x1, .f32⟩
  | .hbm, ⟨52, _⟩ => ⟨S6400000x16, .f32⟩
  | .hbm, ⟨53, _⟩ => ⟨S6400000x16, .f32⟩
  | .hbm, ⟨54, _⟩ => ⟨S_, .f32⟩
  | .hbm, ⟨55, _⟩ => ⟨S100000x16, .f32⟩
  | .hbm, ⟨56, _⟩ => ⟨S6400000x1, .i32⟩
  | .hbm, ⟨57, _⟩ => ⟨S100000x16, .f32⟩
  | .hbm, ⟨58, _⟩ => ⟨S100000, .f32⟩
  | .hbm, ⟨59, _⟩ => ⟨S100000x1, .f32⟩
  | .hbm, ⟨60, _⟩ => ⟨S100000x16, .f32⟩
  | .hbm, ⟨61, _⟩ => ⟨S100000x16, .f32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x8, .f32⟩
  | .hbm, ⟨67, _⟩ => ⟨S_, .i32⟩
  | .hbm, ⟨68, _⟩ => ⟨S6400000, .i32⟩
  | .hbm, ⟨69, _⟩ => ⟨S6400000, .i1⟩
  | .hbm, ⟨70, _⟩ => ⟨S_, .i32⟩
  | .hbm, ⟨71, _⟩ => ⟨S6400000, .i32⟩
  | .hbm, ⟨72, _⟩ => ⟨S6400000, .i32⟩
  | .hbm, ⟨73, _⟩ => ⟨S6400000, .i32⟩
  | .hbm, ⟨74, _⟩ => ⟨S6400000x1, .i32⟩
  | .hbm, ⟨75, _⟩ => ⟨S6400000, .f32⟩
  | .hbm, ⟨76, _⟩ => ⟨S_, .i32⟩
  | .hbm, ⟨77, _⟩ => ⟨S6400000, .i32⟩
  | .hbm, ⟨78, _⟩ => ⟨S6400000, .i1⟩
  | .hbm, ⟨79, _⟩ => ⟨S_, .i32⟩
  | .hbm, ⟨80, _⟩ => ⟨S6400000, .i32⟩
  | .hbm, ⟨81, _⟩ => ⟨S6400000, .i32⟩
  | .hbm, ⟨82, _⟩ => ⟨S6400000, .i32⟩
  | .hbm, ⟨83, _⟩ => ⟨S6400000x1, .i32⟩
  | .hbm, ⟨84, _⟩ => ⟨S6400000, .f32⟩
  | .hbm, ⟨85, _⟩ => ⟨S6400000, .f32⟩
  | .hbm, ⟨86, _⟩ => ⟨S_, .i32⟩
  | .hbm, ⟨87, _⟩ => ⟨S6400000, .i32⟩
  | .hbm, ⟨88, _⟩ => ⟨S6400000, .i1⟩
  | .hbm, ⟨89, _⟩ => ⟨S_, .i32⟩
  | .hbm, ⟨90, _⟩ => ⟨S6400000, .i32⟩
  | .hbm, ⟨91, _⟩ => ⟨S6400000, .i32⟩
  | .hbm, ⟨92, _⟩ => ⟨S6400000, .i32⟩
  | .hbm, ⟨93, _⟩ => ⟨S6400000x1, .i32⟩
  | .hbm, ⟨94, _⟩ => ⟨S6400000x8, .f32⟩
  | .hbm, ⟨95, _⟩ => ⟨S6400000x1, .f32⟩
  | .hbm, ⟨96, _⟩ => ⟨S6400000x8, .f32⟩
  | .hbm, ⟨97, _⟩ => ⟨S6400000x8, .f32⟩
  | .hbm, ⟨98, _⟩ => ⟨S_, .f32⟩
  | .hbm, ⟨99, _⟩ => ⟨S100000x8, .f32⟩
  | .hbm, ⟨100, _⟩ => ⟨S6400000x1, .i32⟩
  | .hbm, ⟨101, _⟩ => ⟨S100000x8, .f32⟩
  | .hbm, ⟨102, _⟩ => ⟨S100000, .f32⟩
  | .hbm, ⟨103, _⟩ => ⟨S100000x1, .f32⟩
  | .hbm, ⟨104, _⟩ => ⟨S100000x8, .f32⟩
  | .hbm, ⟨105, _⟩ => ⟨S100000x8, .f32⟩
  | .hbm, ⟨106, _⟩ => ⟨S100000x8, .f32⟩
  | .hbm, ⟨107, _⟩ => ⟨S1x8, .f32⟩
  | .hbm, ⟨108, _⟩ => ⟨S100000x8, .f32⟩
  | .hbm, ⟨109, _⟩ => ⟨S100000x8, .f32⟩
  | .hbm, ⟨110, _⟩ => ⟨S1x1000, .f32⟩
  | .hbm, ⟨111, _⟩ => ⟨S100000x1000, .f32⟩
  | .local _ .vmem, ⟨0, _⟩ => ⟨S10000x2, .f32⟩
  | .local _ .vmem, ⟨1, _⟩ => ⟨S10000x2, .f32⟩
  | .local _ .vmem, ⟨2, _⟩ => ⟨S2x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x8, .f32⟩
  | .local _ .vmem, ⟨8, _⟩ => ⟨S10000x8, .f32⟩
  | .local _ .vmem, ⟨9, _⟩ => ⟨S10000x8, .f32⟩
  | .local _ .vmem, ⟨10, _⟩ => ⟨S2000x8, .f32⟩
  | .local _ .vmem, ⟨11, _⟩ => ⟨S2000x8, .f32⟩
  | .local _ .vmem, ⟨12, _⟩ => ⟨S8x1000, .f32⟩
  | .local _ .vmem, ⟨13, _⟩ => ⟨S1x1000, .f32⟩
  | .local _ .vmem, ⟨14, _⟩ => ⟨S2000x1000, .f32⟩
  | .local _ .vmem, ⟨15, _⟩ => ⟨S2000x1000, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S10000x16_S10000x16_0_0 : ∀ a, (![0, 0] : Fin 2 → Nat) a + S10000x16.size a ≤ S10000x16.size a
  h_S10000x16 : 0 < S10000x16.numel
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S6400000x1_S6400000x8_0_1 : S6400000x1.BroadcastsInDim S6400000x8 (![0, 1] : Fin 2 → Fin S6400000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S1000_S1x1000 : S1000.ShapeCasts S1x1000
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S8x1000_S8x1000_0_0 : ∀ a, (![0, 0] : Fin 2 → Nat) a + S8x1000.size a ≤ S8x1000.size a
  h_S8x1000 : 0 < S8x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S2000x1000 : S1x1000.Broadcasts S2000x1000
  inb_S2000x1000_S2000x1000_0_0 : ∀ a, (![0, 0] : Fin 2 → Nat) a + S2000x1000.size a ≤ S2000x1000.size a
  h_S2000x1000 : 0 < S2000x1000.numel
  scatter_S100000_S6400000x1_S6400000_n_0_0_1_wf : ScatterDims.WF S100000 S6400000x1 S6400000 [] [0] [0] 1
  dot_S10000x2_S2x16_S10000x16_1_0_0_1_n_n_wf : DotDims.WF S10000x2 S2x16 S10000x16 [1] [0] [0] [1] [] []
  gather_S100000_S6400000x1_S6400000_n_0_n_n_0_1_1_wf : GatherDims.WF S100000 S6400000x1 S6400000 [] [0] [] [0] [] 1 ![1]
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S10000x16_S16x8_S10000x8_1_0_0_1_n_n_wf : DotDims.WF S10000x16 S16x8 S10000x8 [1] [0] [0] [1] [] []
  gather_S100000x8_S6400000x1_S6400000x8_1_0_n_n_0_1_18_wf : GatherDims.WF S100000x8 S6400000x1 S6400000x8 [1] [0] [] [0] [] 1 ![1, 8]
  scatter_S100000x8_S6400000x1_S6400000x8_1_0_0_1_wf : ScatterDims.WF S100000x8 S6400000x1 S6400000x8 [1] [0] [0] 1
  dot_S2000x8_S8x1000_S2000x1000_1_0_0_1_n_n_wf : DotDims.WF S2000x8 S8x1000 S2000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x8.size a ≤ S16x8.size a
  hwx1_1 : ∀ i : grid1.Coords, EltTy.bits .f32 = 32 ∨ (Rect.block (s := S16x8) S16x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S100000x8.size a
  hwx1_2 : ∀ i : grid1.Coords, EltTy.bits .f32 = 32 ∨ (Rect.block (s := S100000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S100000x8.size a
  hwx2_0 : ∀ i : grid2.Coords, EltTy.bits .f32 = 32 ∨ (Rect.block (s := S100000x8) S2000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x1000.size a ≤ S8x1000.size a
  hwx2_1 : ∀ i : grid2.Coords, EltTy.bits .f32 = 32 ∨ (Rect.block (s := S8x1000) S8x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1000.size a ≤ S100000x1000.size a
  hwx2_3 : ∀ i : grid2.Coords, EltTy.bits .f32 = 32 ∨ (Rect.block (s := S100000x1000) S2000x1000.size (cc2_transform_3 i) (hinb2_3 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf
def scatter_S100000x8_S6400000x1_S6400000x8_1_0_0_1 : ScatterDims S100000x8 S6400000x1 S6400000x8 where
  updateWindowDims := [1]
  insertedWindowDims := [0]
  scatterDimsToOperandDims := [0]
  indexVectorDim := 1
  wf := scatter_S100000x8_S6400000x1_S6400000x8_1_0_0_1_wf
def dot_S2000x8_S8x1000_S2000x1000_1_0_0_1_n_n : DotDims S2000x8 S8x1000 S2000x1000 where
  lhsContracting := [1]
  rhsContracting := [0]
  lhsNonContracting := [0]
  rhsNonContracting := [1]
  lhsBatch := []
  rhsBatch := []
  wf := dot_S2000x8_S8x1000_S2000x1000_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S8x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v85) S1x1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S2000x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x6400000 : Shape := ⟨2, ![2, 6400000]⟩
abbrev S2x16 : Shape := ⟨2, ![2, 16]⟩
abbrev S16 : Shape := ⟨1, ![16]⟩
abbrev S16x8 : Shape := ⟨2, ![16, 8]⟩
abbrev S8 : Shape := ⟨1, ![8]⟩
abbrev S8x1000 : Shape := ⟨2, ![8, 1000]⟩
abbrev S1000 : Shape := ⟨1, ![1000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x16 : Shape := ⟨2, ![100000, 16]⟩
abbrev S6400000x16 : Shape := ⟨2, ![6400000, 16]⟩
abbrev S100000x1 : Shape := ⟨2, ![100000, 1]⟩
abbrev S1x16 : Shape := ⟨2, ![1, 16]⟩
abbrev S100000x8 : Shape := ⟨2, ![100000, 8]⟩
abbrev S6400000x8 : Shape := ⟨2, ![6400000, 8]⟩
abbrev S1x8 : Shape := ⟨2, ![1, 8]⟩
abbrev S100000x1000 : Shape := ⟨2, ![100000, 1000]⟩
abbrev S1x1000 : Shape := ⟨2, ![1, 1000]⟩

abbrev nBuf : Space → Nat
  | .hbm => 117
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x6400000, .i32⟩
  | .hbm, ⟨2, _⟩ => ⟨S2x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1000, .f32⟩
  | .hbm, ⟨7, _⟩ => ⟨S1000, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S100000, .f32⟩
  | .hbm, ⟨16, _⟩ => ⟨S6400000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x16, .f32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S6400000, .f32⟩
  | .hbm, ⟨41, _⟩ => ⟨S6400000, .f32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S6400000x16, .f32⟩
  | .hbm, ⟨51, _⟩ => ⟨S6400000x1, .f32⟩
  | .hbm, ⟨52, _⟩ => ⟨S6400000x16, .f32⟩
  | .hbm, ⟨53, _⟩ => ⟨S6400000x16, .f32⟩
  | .hbm, ⟨54, _⟩ => ⟨S_, .f32⟩
  | .hbm, ⟨55, _⟩ => ⟨S100000x16, .f32⟩
  | .hbm, ⟨56, _⟩ => ⟨S6400000x1, .i32⟩
  | .hbm, ⟨57, _⟩ => ⟨S100000x16, .f32⟩
  | .hbm, ⟨58, _⟩ => ⟨S100000, .f32⟩
  | .hbm, ⟨59, _⟩ => ⟨S100000x1, .f32⟩
  | .hbm, ⟨60, _⟩ => ⟨S100000x16, .f32⟩
  | .hbm, ⟨61, _⟩ => ⟨S100000x16, .f32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x8, .f32⟩
  | .hbm, ⟨70, _⟩ => ⟨S_, .i32⟩
  | .hbm, ⟨71, _⟩ => ⟨S6400000, .i32⟩
  | .hbm, ⟨72, _⟩ => ⟨S6400000, .i1⟩
  | .hbm, ⟨73, _⟩ => ⟨S_, .i32⟩
  | .hbm, ⟨74, _⟩ => ⟨S6400000, .i32⟩
  | .hbm, ⟨75, _⟩ => ⟨S6400000, .i32⟩
  | .hbm, ⟨76, _⟩ => ⟨S6400000, .i32⟩
  | .hbm, ⟨77, _⟩ => ⟨S6400000x1, .i32⟩
  | .hbm, ⟨78, _⟩ => ⟨S6400000, .f32⟩
  | .hbm, ⟨79, _⟩ => ⟨S_, .i32⟩
  | .hbm, ⟨80, _⟩ => ⟨S6400000, .i32⟩
  | .hbm, ⟨81, _⟩ => ⟨S6400000, .i1⟩
  | .hbm, ⟨82, _⟩ => ⟨S_, .i32⟩
  | .hbm, ⟨83, _⟩ => ⟨S6400000, .i32⟩
  | .hbm, ⟨84, _⟩ => ⟨S6400000, .i32⟩
  | .hbm, ⟨85, _⟩ => ⟨S6400000, .i32⟩
  | .hbm, ⟨86, _⟩ => ⟨S6400000x1, .i32⟩
  | .hbm, ⟨87, _⟩ => ⟨S6400000, .f32⟩
  | .hbm, ⟨88, _⟩ => ⟨S6400000, .f32⟩
  | .hbm, ⟨89, _⟩ => ⟨S_, .i32⟩
  | .hbm, ⟨90, _⟩ => ⟨S6400000, .i32⟩
  | .hbm, ⟨91, _⟩ => ⟨S6400000, .i1⟩
  | .hbm, ⟨92, _⟩ => ⟨S_, .i32⟩
  | .hbm, ⟨93, _⟩ => ⟨S6400000, .i32⟩
  | .hbm, ⟨94, _⟩ => ⟨S6400000, .i32⟩
  | .hbm, ⟨95, _⟩ => ⟨S6400000, .i32⟩
  | .hbm, ⟨96, _⟩ => ⟨S6400000x1, .i32⟩
  | .hbm, ⟨97, _⟩ => ⟨S6400000x8, .f32⟩
  | .hbm, ⟨98, _⟩ => ⟨S6400000x1, .f32⟩
  | .hbm, ⟨99, _⟩ => ⟨S6400000x8, .f32⟩
  | .hbm, ⟨100, _⟩ => ⟨S6400000x8, .f32⟩
  | .hbm, ⟨101, _⟩ => ⟨S_, .f32⟩
  | .hbm, ⟨102, _⟩ => ⟨S100000x8, .f32⟩
  | .hbm, ⟨103, _⟩ => ⟨S6400000x1, .i32⟩
  | .hbm, ⟨104, _⟩ => ⟨S100000x8, .f32⟩
  | .hbm, ⟨105, _⟩ => ⟨S100000, .f32⟩
  | .hbm, ⟨106, _⟩ => ⟨S100000x1, .f32⟩
  | .hbm, ⟨107, _⟩ => ⟨S100000x8, .f32⟩
  | .hbm, ⟨108, _⟩ => ⟨S100000x8, .f32⟩
  | .hbm, ⟨109, _⟩ => ⟨S100000x8, .f32⟩
  | .hbm, ⟨110, _⟩ => ⟨S1x8, .f32⟩
  | .hbm, ⟨111, _⟩ => ⟨S100000x8, .f32⟩
  | .hbm, ⟨112, _⟩ => ⟨S100000x8, .f32⟩
  | .hbm, ⟨113, _⟩ => ⟨S100000x1000, .f32⟩
  | .hbm, ⟨114, _⟩ => ⟨S1x1000, .f32⟩
  | .hbm, ⟨115, _⟩ => ⟨S100000x1000, .f32⟩
  | .hbm, ⟨116, _⟩ => ⟨S100000x1000, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6400000x1_S6400000x8_0_1 : S6400000x1.BroadcastsInDim S6400000x8 (![0, 1] : Fin 2 → Fin S6400000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  scatter_S100000_S6400000x1_S6400000_n_0_0_1_wf : ScatterDims.WF S100000 S6400000x1 S6400000 [] [0] [0] 1
  dot_S100000x2_S2x16_S100000x16_1_0_0_1_n_n_wf : DotDims.WF S100000x2 S2x16 S100000x16 [1] [0] [0] [1] [] []
  gather_S100000_S6400000x1_S6400000_n_0_n_n_0_1_1_wf : GatherDims.WF S100000 S6400000x1 S6400000 [] [0] [] [0] [] 1 ![1]
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x8_S100000x8_1_0_0_1_n_n_wf : DotDims.WF S100000x16 S16x8 S100000x8 [1] [0] [0] [1] [] []
  gather_S100000x8_S6400000x1_S6400000x8_1_0_n_n_0_1_18_wf : GatherDims.WF S100000x8 S6400000x1 S6400000x8 [1] [0] [] [0] [] 1 ![1, 8]
  scatter_S100000x8_S6400000x1_S6400000x8_1_0_0_1_wf : ScatterDims.WF S100000x8 S6400000x1 S6400000x8 [1] [0] [0] 1
  dot_S100000x8_S8x1000_S100000x1000_1_0_0_1_n_n_wf : DotDims.WF S100000x8 S8x1000 S100000x1000 [1] [0] [0] [1] [] []

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf
def scatter_S100000x8_S6400000x1_S6400000x8_1_0_0_1 : ScatterDims S100000x8 S6400000x1 S6400000x8 where
  updateWindowDims := [1]
  insertedWindowDims := [0]
  scatterDimsToOperandDims := [0]
  indexVectorDim := 1
  wf := scatter_S100000x8_S6400000x1_S6400000x8_1_0_0_1_wf
def dot_S100000x8_S8x1000_S100000x1000_1_0_0_1_n_n : DotDims S100000x8 S8x1000 S100000x1000 where
  lhsContracting := [1]
  rhsContracting := [0]
  lhsNonContracting := [0]
  rhsNonContracting := [1]
  lhsBatch := []
  rhsBatch := []
  wf := dot_S100000x8_S8x1000_S100000x1000_1_0_0_1_n_n_wf

class Facts : Prop extends Facts₀ where

variable [Facts]
-- ==== Proof.KernelRun.lean ====
/-
  The kernel program's run with its result named.

  The program is three row-tiled matrix products among stretches of host operations.  Run from any memory, every
  weakly fair execution ends, and the buffers it ends with are the fold of the program's segments from the launch
  memory: a host stretch leaves its operations' results, a tiled product leaves its output array at what its
  write-backs give and every other buffer as it found it.  The generated frame reads the argument buffers off that
  fold; here the result buffer is read off it as well, so that the value of the program is the fold's last
  boundary at the result.
-/
import proofs.«127851_j47218870452270_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary of the fold, and the argument buffers end as launched. -/
theorem run_fold : θ_run defs (onTc (τ := τ) (main (F := F))) ⟨m, fun _ => 0, ρ⟩ (fun r => ∀ c : Dev nD,
      r.2.mem ((c.tc : Thread nD τ).loc main_v86) = W6 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v86 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.Tile0.lean ====
/-
  The first tiled product: the node features times the first weight matrix.

  The grid has ten points.  At point t the kernel reads rows [10000 t, 10000 t + 10000) of the 100000 x 2 operand and
  the whole 2 x 16 weight, forms their product (the narrowing to bfloat16 is the identity on the extended reals, the
  accumulator starts at zero) and writes it to rows [10000 t, 10000 t + 10000) of the 100000 x 16 output.  Entry (p, q)
  of a tile's product reads row p of the tile only, so the tile is the corresponding block of rows of the whole
  product; the ten tiles cover every row, hence the output array ends as the whole product.
-/
import proofs.«127851_j47218870452270_1_alg».proof.Proof.Gen.KernelIdeal.Frame
import proofs.«127851_j47218870452270_1_alg».proof.Proof.LibPlainDot
import Idealize.ShloMosaic.Lib.Pipeline.Value
import Idealize.ShloMosaic.Lib.ValueIdx

set_option maxRecDepth 16384

noncomputable section

namespace Cert.KernelIdeal.Tiles

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The zero offsets of a rank-2 rectangle, as the constant function. -/
theorem zeros2 : (![0, 0] : Fin 2 → Nat) = fun _ => 0 := funext fun a => by fin_cases a <;> rfl

/-- The tile's dimension record is the plain 10000 x 2 by 2 x 16 one. -/
theorem tileDot0_plain : dot_S10000x2_S2x16_S10000x16_1_0_0_1_n_n = DotDims.plain 10000 2 16 :=
  PlainDot.eq_plain _ rfl rfl rfl rfl rfl rfl

/-- One tile's product at (p, q): the sum over k of x (p, k) * w (k, q). -/
theorem tile0_apply (x : Vec Ideal S10000x2 .f32) (w : Vec Ideal S2x16 .f32) (p : Fin 10000) (q : Fin 16) :
    k0_pay1 (F := Ideal) x w (ix2 p q) = ∑ k : Fin 2, x (ix2 p k) * w (ix2 k q) := by
  unfold k0_pay1
  exact PlainDot.matmul_zero_apply _ tileDot0_plain none _ _ p q

/-- A tile whose rows are rows of A and whose weight is W has, at (p, q), the whole product's entry at (P, q), P the
    row of A that row p of the tile is. -/
theorem tile0_of_rows (A : Vec Ideal S100000x2 .f32) (W : Vec Ideal S2x16 .f32)
    (d : DotDims S100000x2 S2x16 S100000x16) (hd : d = DotDims.plain 100000 2 16)
    (x : Vec Ideal S10000x2 .f32) (w : Vec Ideal S2x16 .f32) (P : Fin 100000) (p : Fin 10000) (q : Fin 16)
    (hx : ∀ k : Fin 2, x (ix2 p k) = A (ix2 P k)) (hw : ∀ k : Fin 2, w (ix2 k q) = W (ix2 k q)) :
    k0_pay1 (F := Ideal) x w (ix2 p q) = Host.dotGeneral (F := Ideal) (φ₁ := .f32) (φ₂ := .f32) d none A W (ix2 P q) := by
  rw [tile0_apply]
  refine Eq.trans ?_ (PlainDot.dotGeneral_apply d hd none .single A W P q).symm
  exact Finset.sum_congr rfl fun k _ => by rw [hx k, hw k]

/-- The printed index maps over the grid: the row-tiled windows sit at block row t, the weight at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the two arrays the region finds. -/
theorem flushed0 (c : Dev nD) (d : DotDims S100000x2 S2x16 S100000x16) (hd : d = DotDims.plain 100000 2 16)
    (t : Fin cfg0.N) :
    (dat0 V c).flushed 2 t
      = ((cfg0.win 2).blk t).view.read (Elt Ideal) (Host.dotGeneral (F := Ideal) (φ₁ := .f32) (φ₂ := .f32) d none (V c main_arg0) (V c main_arg2)) := by
  show (cfg0.win 2).cut (grid0.coords t) ((dat0 V c).after 2 t) = _
  rw [after0_2]
  unfold out0_2
  rw [View.canon_unit_zero zeros2]
  simp only [View.ld_unit_zero (S := S10000x2) zeros2, View.ld_unit_zero (S := S2x16) zeros2]
  obtain ⟨e0, e1, e2, e3, e4, e5⟩ := index_facts0 t
  have ht : t.val < 10 := lt_of_lt_of_eq t.isLt N_0
  funext j
  obtain ⟨p, q, rfl⟩ : ∃ (p : Fin 10000) (q : Fin 16), j = ix2 p q := ⟨j 0, j 1, eq_ix2 j⟩
  have hp : p.val < 10000 := p.isLt
  have hP : t.val * 10000 + p.val < 100000 := by omega
  have hemb : ((cfg0.win 2).blk t).view.emb (ix2 p q) = ix2 (⟨t.val * 10000 + p.val, hP⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  show k0_pay1 (iblk0 V c 0 t) (iblk0 V c 1 t) (ix2 p q) = Host.dotGeneral (F := Ideal) (φ₁ := .f32) (φ₂ := .f32) d none (V c main_arg0) (V c main_arg2) (((cfg0.win 2).blk t).view.emb (ix2 p q))
  rw [hemb]
  refine tile0_of_rows (V c main_arg0) (V c main_arg2) d hd _ _ _ p q (fun k => ?_) (fun k => ?_)
  · show V c main_arg0 (((cfg0.win 0).blk t).view.emb (ix2 p k)) = V c main_arg0 (ix2 (⟨t.val * 10000 + p.val, hP⟩ : Fin 100000) k)
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 2 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 2 + 1 * k.val = k.val; omega
    | ⟨1, _⟩ => show win0_1.index t (1 : Fin 2) * 16 + 1 * q.val = q.val; omega

/-- An index of the output array is in point t's block iff each coordinate is in the block's range on its axis. -/
theorem mem_block0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v11).slice (win0_2.rect t)).set ↔ _
  rw [View.set_slice_whole, Rect.mem_set_unit]
  exact Iff.rfl

/-- Every row of the output is in some point's block: row r is in the block of point r / 10000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  let t : Fin cfg0.N := ⟨(i 0).val / 10000, by show (i 0).val / 10000 < grid0.N; rw [hN]; omega⟩
  obtain ⟨e0, e1, e2, e3, e4, e5⟩ := index_facts0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region: the whole product of the two arrays the region finds. -/
theorem array0 (c : Dev nD) (d : DotDims S100000x2 S2x16 S100000x16) (hd : d = DotDims.plain 100000 2 16) :
    (dat0 V c).arrAt 2 cfg0.N = Host.dotGeneral (F := Ideal) (φ₁ := .f32) (φ₂ := .f32) d none (V c main_arg0) (V c main_arg2) :=
  (dat0 V c).arrAt_eq_of_cover 2 _ (fun t _ => flushed0 V c d hd t) cover0

end Cert.KernelIdeal.Tiles

end
-- ==== Proof.Tile1.lean ====
/-
  The second tiled product: the rectified first layer times the second weight matrix.

  The grid has ten points.  At point t the kernel reads rows [10000 t, 10000 t + 10000) of the 100000 x 16 operand,
  takes the maximum of each entry with zero, multiplies by the whole 16 x 8 weight and writes the product to the same
  rows of the 100000 x 8 output.  The maximum with zero is taken entry by entry, so rectifying a block of rows is the
  block of rows of the rectified array; with that the tile is a block of rows of the whole product of the rectified
  array and the weight, and the ten tiles cover every row.
-/
import proofs.«127851_j47218870452270_1_alg».proof.Proof.Gen.KernelIdeal.Frame
import proofs.«127851_j47218870452270_1_alg».proof.Proof.LibPlainDot
import proofs.«127851_j47218870452270_1_alg».proof.Proof.Tile0
import Idealize.ShloMosaic.Lib.Pipeline.Value
import Idealize.ShloMosaic.Lib.ValueIdx

set_option maxRecDepth 16384

noncomputable section

namespace Cert.KernelIdeal.Tiles

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The tile's dimension record is the plain 10000 x 16 by 16 x 8 one. -/
theorem tileDot1_plain : dot_S10000x16_S16x8_S10000x8_1_0_0_1_n_n = DotDims.plain 10000 16 8 :=
  PlainDot.eq_plain _ rfl rfl rfl rfl rfl rfl

/-- One tile at (p, q): the sum over k of max (x (p, k)) 0 * w (k, q), zero being what the word 0x00000000 denotes. -/
theorem tile1_apply (x : Vec Ideal S10000x16 .f32) (w : Vec Ideal S16x8 .f32) (p : Fin 10000) (q : Fin 8) :
    k1_pay1 (F := Ideal) x w (ix2 p q)
      = ∑ k : Fin 16, max (x (ix2 p k)) (Ideal.ofBits .f32 0x00000000#32) * w (ix2 k q) := by
  unfold k1_pay1
  refine (PlainDot.matmul_zero_apply _ tileDot1_plain none _ _ p q).trans ?_
  refine Finset.sum_congr rfl fun k _ => ?_
  rw [shapeCast_self]
  rfl

/-- A tile whose rows are rows of A and whose weight is W has, at (p, q), the entry at (P, q) of the product of the
    rectified A and W; Z is any array that reads zero everywhere. -/
theorem tile1_of_rows (A Z : Vec Ideal S100000x16 .f32) (W : Vec Ideal S16x8 .f32)
    (hZ : ∀ i, Z i = Ideal.ofBits .f32 0x00000000#32)
    (d : DotDims S100000x16 S16x8 S100000x8) (hd : d = DotDims.plain 100000 16 8)
    (x : Vec Ideal S10000x16 .f32) (w : Vec Ideal S16x8 .f32) (P : Fin 100000) (p : Fin 10000) (q : Fin 8)
    (hx : ∀ k : Fin 16, x (ix2 p k) = A (ix2 P k)) (hw : ∀ k : Fin 16, w (ix2 k q) = W (ix2 k q)) :
    k1_pay1 (F := Ideal) x w (ix2 p q) = Host.dotGeneral (F := Ideal) (φ₁ := .f32) (φ₂ := .f32) d none (maximumf (F := Ideal) A Z) W (ix2 P q) := by
  rw [tile1_apply]
  refine Eq.trans ?_ (PlainDot.dotGeneral_apply d hd none .single (maximumf (F := Ideal) A Z) W P q).symm
  refine Finset.sum_congr rfl fun k _ => ?_
  rw [hx k, hw k, maximumf_apply, hZ]

/-- The printed index maps over the grid: the row-tiled windows sit at block row t, the weight at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the rectified operand and the weight. -/
theorem flushed1 (c : Dev nD) (Z : Vec Ideal S100000x16 .f32) (hZ : ∀ i, Z i = Ideal.ofBits .f32 0x00000000#32)
    (d : DotDims S100000x16 S16x8 S100000x8) (hd : d = DotDims.plain 100000 16 8) (t : Fin cfg1.N) :
    (dat1 V c).flushed 2 t
      = ((cfg1.win 2).blk t).view.read (Elt Ideal) (Host.dotGeneral (F := Ideal) (φ₁ := .f32) (φ₂ := .f32) d none (maximumf (F := Ideal) (V c main_v47) Z) (V c main_arg4)) := by
  show (cfg1.win 2).cut (grid1.coords t) ((dat1 V c).after 2 t) = _
  rw [after1_2]
  unfold out1_2
  rw [View.canon_unit_zero zeros2]
  simp only [View.ld_unit_zero (S := S10000x16) zeros2, View.ld_unit_zero (S := S16x8) zeros2]
  obtain ⟨e0, e1, e2, e3, e4, e5⟩ := index_facts1 t
  have ht : t.val < 10 := lt_of_lt_of_eq t.isLt N_1
  funext j
  obtain ⟨p, q, rfl⟩ : ∃ (p : Fin 10000) (q : Fin 8), j = ix2 p q := ⟨j 0, j 1, eq_ix2 j⟩
  have hp : p.val < 10000 := p.isLt
  have hP : t.val * 10000 + p.val < 100000 := by omega
  have hemb : ((cfg1.win 2).blk t).view.emb (ix2 p q) = ix2 (⟨t.val * 10000 + p.val, hP⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 8 + 1 * q.val = q.val; omega
  show k1_pay1 (iblk1 V c 0 t) (iblk1 V c 1 t) (ix2 p q)
    = Host.dotGeneral (F := Ideal) (φ₁ := .f32) (φ₂ := .f32) d none (maximumf (F := Ideal) (V c main_v47) Z) (V c main_arg4) (((cfg1.win 2).blk t).view.emb (ix2 p q))
  rw [hemb]
  refine tile1_of_rows (V c main_v47) Z (V c main_arg4) hZ d hd _ _ _ p q (fun k => ?_) (fun k => ?_)
  · show V c main_v47 (((cfg1.win 0).blk t).view.emb (ix2 p k)) = V c main_v47 (ix2 (⟨t.val * 10000 + p.val, hP⟩ : Fin 100000) k)
    refine congrArg (V c main_v47) (funext fun a => Fin.ext ?_)
    match a with
    | ⟨0, _⟩ => show win1_0.index t (0 : Fin 2) * 10000 + 1 * p.val = t.val * 10000 + p.val; omega
    | ⟨1, _⟩ => show win1_0.index t (1 : Fin 2) * 16 + 1 * k.val = k.val; omega
  · show V c main_arg4 (((cfg1.win 1).blk t).view.emb (ix2 k q)) = V c main_arg4 (ix2 k q)
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 8 + 1 * q.val = q.val; omega

/-- An index of the output array is in point t's block iff each coordinate is in the block's range on its axis. -/
theorem mem_block1 (t : Fin cfg1.N) (i : S100000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v48).slice (win1_2.rect t)).set ↔ _
  rw [View.set_slice_whole, Rect.mem_set_unit]
  exact Iff.rfl

/-- Every row of the output is in some point's block: row r is in the block of point r / 10000. -/
theorem cover1 (i : S100000x8.Idx) :
    ∃ t : Fin cfg1.N, (cfg1.win 2).flush t = true ∧ i ∈ ((cfg1.win 2).blk t).view.set := by
  have hi0 : (i 0).val < 100000 := (i 0).isLt
  have hi1 : (i 1).val < 8 := (i 1).isLt
  have hN : grid1.N = 10 := N_1
  let t : Fin cfg1.N := ⟨(i 0).val / 10000, by show (i 0).val / 10000 < grid1.N; rw [hN]; omega⟩
  obtain ⟨e0, e1, e2, e3, e4, e5⟩ := index_facts1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 8 ≤ (i 1).val ∧ (i 1).val < win1_2.index t (1 : Fin 2) * 8 + 8; omega

/-- The output array after the region: the product of the rectified operand and the weight. -/
theorem array1 (c : Dev nD) (Z : Vec Ideal S100000x16 .f32) (hZ : ∀ i, Z i = Ideal.ofBits .f32 0x00000000#32)
    (d : DotDims S100000x16 S16x8 S100000x8) (hd : d = DotDims.plain 100000 16 8) :
    (dat1 V c).arrAt 2 cfg1.N = Host.dotGeneral (F := Ideal) (φ₁ := .f32) (φ₂ := .f32) d none (maximumf (F := Ideal) (V c main_v47) Z) (V c main_arg4) :=
  (dat1 V c).arrAt_eq_of_cover 2 _ (fun t _ => flushed1 V c Z hZ d hd t) cover1

end Cert.KernelIdeal.Tiles

end
-- ==== Proof.Tile2.lean ====
/-
  The third tiled product: the second layer times the classifier weight, plus the bias row.

  The grid has fifty points.  At point t the kernel reads rows [2000 t, 2000 t + 2000) of the 100000 x 8 operand, the
  whole 8 x 1000 weight and the 1 x 1000 bias row, and writes the tile's product plus the bias row broadcast over the
  tile's rows to rows [2000 t, 2000 t + 2000) of the 100000 x 1000 output.  Entry (p, q) of the tile is the whole
  product's entry at the tile's row plus the bias at column q, so the tile is a block of rows of the whole product
  plus any array that reads the bias row at every row; the fifty tiles cover every row.
-/
import proofs.«127851_j47218870452270_1_alg».proof.Proof.Gen.KernelIdeal.Frame
import proofs.«127851_j47218870452270_1_alg».proof.Proof.LibPlainDot
import proofs.«127851_j47218870452270_1_alg».proof.Proof.Tile0
import Idealize.ShloMosaic.Lib.Pipeline.Value
import Idealize.ShloMosaic.Lib.ValueIdx
import Idealize.ShloMosaic.Lib.ValueLayout

set_option maxRecDepth 16384

noncomputable section

namespace Cert.KernelIdeal.Tiles

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The tile's dimension record is the plain 2000 x 8 by 8 x 1000 one. -/
theorem tileDot2_plain : dot_S2000x8_S8x1000_S2000x1000_1_0_0_1_n_n = DotDims.plain 2000 8 1000 :=
  PlainDot.eq_plain _ rfl rfl rfl rfl rfl rfl

/-- One tile at (p, q): the sum over k of x (p, k) * w (k, q), plus the bias row at q. -/
theorem tile2_apply (x : Vec Ideal S2000x8 .f32) (w : Vec Ideal S8x1000 .f32) (b : Vec Ideal S1x1000 .f32)
    (p : Fin 2000) (q : Fin 1000) :
    k2_pay1 (F := Ideal) x w b (ix2 p q) = (∑ k : Fin 8, x (ix2 p k) * w (ix2 k q)) + b (ix2 (0 : Fin 1) q) := by
  unfold k2_pay1
  rw [addf_apply]
  refine congrArg₂ (· + ·) ?_ ?_
  · refine (PlainDot.matmul_zero_apply _ tileDot2_plain none _ _ p q).trans ?_
    refine Finset.sum_congr rfl fun k _ => ?_
    rw [shapeCast_self]
    rfl
  · rw [broadcastTo_1b_ab_apply, shapeCast_self]

/-- A tile whose rows are rows of A, whose weight is W and whose bias row is b has, at (p, q), the whole product's
    entry at (P, q) plus B (P, q), B any array that reads b's column q at every row. -/
theorem tile2_of_rows (A : Vec Ideal S100000x8 .f32) (W : Vec Ideal S8x1000 .f32) (B : Vec Ideal S100000x1000 .f32)
    (d : DotDims S100000x8 S8x1000 S100000x1000) (hd : d = DotDims.plain 100000 8 1000)
    (x : Vec Ideal S2000x8 .f32) (w : Vec Ideal S8x1000 .f32) (b : Vec Ideal S1x1000 .f32)
    (P : Fin 100000) (p : Fin 2000) (q : Fin 1000)
    (hx : ∀ k : Fin 8, x (ix2 p k) = A (ix2 P k)) (hw : ∀ k : Fin 8, w (ix2 k q) = W (ix2 k q))
    (hb : b (ix2 (0 : Fin 1) q) = B (ix2 P q)) :
    k2_pay1 (F := Ideal) x w b (ix2 p q) = addf (F := Ideal) (Host.dotGeneral (F := Ideal) (φ₁ := .f32) (φ₂ := .f32) d none A W) B (ix2 P q) := by
  rw [tile2_apply, addf_apply, hb]
  refine congrArg (· + B (ix2 P q)) ?_
  refine Eq.trans ?_ (PlainDot.dotGeneral_apply d hd none .single A W P q).symm
  exact Finset.sum_congr rfl fun k _ => by rw [hx k, hw k]

/-- The printed index maps over the grid: the row-tiled windows sit at block row t, the weight and the bias row at
    block (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of the whole product plus the bias array. -/
theorem flushed2 (c : Dev nD) (B : Vec Ideal S100000x1000 .f32)
    (hB : ∀ (P : Fin 100000) (q : Fin 1000), B (ix2 P q) = V c main_v85 (ix2 (0 : Fin 1) q))
    (d : DotDims S100000x8 S8x1000 S100000x1000) (hd : d = DotDims.plain 100000 8 1000) (t : Fin cfg2.N) :
    (dat2 V c).flushed 3 t
      = ((cfg2.win 3).blk t).view.read (Elt Ideal) (addf (F := Ideal) (Host.dotGeneral (F := Ideal) (φ₁ := .f32) (φ₂ := .f32) d none (V c main_v84) (V c main_arg6)) B) := by
  show (cfg2.win 3).cut (grid2.coords t) ((dat2 V c).after 3 t) = _
  rw [after2_3]
  unfold out2_3
  rw [View.canon_unit_zero zeros2]
  simp only [View.ld_unit_zero (S := S2000x8) zeros2, View.ld_unit_zero (S := S8x1000) zeros2,
    View.ld_unit_zero (S := S1x1000) zeros2]
  obtain ⟨e0, e1, e2, e3, e4, e5, e6, e7⟩ := index_facts2 t
  have ht : t.val < 50 := lt_of_lt_of_eq t.isLt N_2
  funext j
  obtain ⟨p, q, rfl⟩ : ∃ (p : Fin 2000) (q : Fin 1000), j = ix2 p q := ⟨j 0, j 1, eq_ix2 j⟩
  have hp : p.val < 2000 := p.isLt
  have hP : t.val * 2000 + p.val < 100000 := by omega
  have hemb : ((cfg2.win 3).blk t).view.emb (ix2 p q) = ix2 (⟨t.val * 2000 + p.val, hP⟩ : Fin 100000) q := by
    funext a; apply Fin.ext
    match a with
    | ⟨0, _⟩ => show win2_3.index t (0 : Fin 2) * 2000 + 1 * p.val = t.val * 2000 + p.val; omega
    | ⟨1, _⟩ => show win2_3.index t (1 : Fin 2) * 1000 + 1 * q.val = q.val; omega
  show k2_pay1 (iblk2 V c 0 t) (iblk2 V c 1 t) (iblk2 V c 2 t) (ix2 p q)
    = addf (F := Ideal) (Host.dotGeneral (F := Ideal) (φ₁ := .f32) (φ₂ := .f32) d none (V c main_v84) (V c main_arg6)) B (((cfg2.win 3).blk t).view.emb (ix2 p q))
  rw [hemb]
  refine tile2_of_rows (V c main_v84) (V c main_arg6) B d hd _ _ _ _ p q (fun k => ?_) (fun k => ?_) ?_
  · show V c main_v84 (((cfg2.win 0).blk t).view.emb (ix2 p k)) = V c main_v84 (ix2 (⟨t.val * 2000 + p.val, hP⟩ : Fin 100000) k)
    refine congrArg (V c main_v84) (funext fun a => Fin.ext ?_)
    match a with
    | ⟨0, _⟩ => show win2_0.index t (0 : Fin 2) * 2000 + 1 * p.val = t.val * 2000 + p.val; omega
    | ⟨1, _⟩ => show win2_0.index t (1 : Fin 2) * 8 + 1 * k.val = k.val; omega
  · show V c main_arg6 (((cfg2.win 1).blk t).view.emb (ix2 k q)) = V c main_arg6 (ix2 k q)
    refine congrArg (V c main_arg6) (funext fun a => Fin.ext ?_)
    match a with
    | ⟨0, _⟩ => show win2_1.index t (0 : Fin 2) * 8 + 1 * k.val = k.val; omega
    | ⟨1, _⟩ => show win2_1.index t (1 : Fin 2) * 1000 + 1 * q.val = q.val; omega
  · rw [hB]
    show V c main_v85 (((cfg2.win 2).blk t).view.emb (ix2 (0 : Fin 1) q)) = V c main_v85 (ix2 (0 : Fin 1) q)
    refine congrArg (V c main_v85) (funext fun a => Fin.ext ?_)
    match a with
    | ⟨0, _⟩ => show win2_2.index t (0 : Fin 2) * 1 + 1 * 0 = 0; omega
    | ⟨1, _⟩ => show win2_2.index t (1 : Fin 2) * 1000 + 1 * q.val = q.val; omega

/-- An index of the output array is in point t's block iff each coordinate is in the block's range on its axis. -/
theorem mem_block2 (t : Fin cfg2.N) (i : S100000x1000.Idx) :
    i ∈ ((cfg2.win 3).blk t).view.set ↔ ∀ a : Fin 2, win2_3.index t a * S2000x1000.size a ≤ (i a).val ∧ (i a).val < win2_3.index t a * S2000x1000.size a + S2000x1000.size a := by
  show i ∈ ((View.whole main_v86).slice (win2_3.rect t)).set ↔ _
  rw [View.set_slice_whole, Rect.mem_set_unit]
  exact Iff.rfl

/-- Every row of the output is in some point's block: row r is in the block of point r / 2000. -/
theorem cover2 (i : S100000x1000.Idx) :
    ∃ t : Fin cfg2.N, (cfg2.win 3).flush t = true ∧ i ∈ ((cfg2.win 3).blk t).view.set := by
  have hi0 : (i 0).val < 100000 := (i 0).isLt
  have hi1 : (i 1).val < 1000 := (i 1).isLt
  have hN : grid2.N = 50 := N_2
  let t : Fin cfg2.N := ⟨(i 0).val / 2000, by show (i 0).val / 2000 < grid2.N; rw [hN]; omega⟩
  obtain ⟨e0, e1, e2, e3, e4, e5, e6, e7⟩ := index_facts2 t
  have ht : t.val = (i 0).val / 2000 := rfl
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 1000 ≤ (i 1).val ∧ (i 1).val < win2_3.index t (1 : Fin 2) * 1000 + 1000; omega

/-- The output array after the region: the whole product plus the bias array. -/
theorem array2 (c : Dev nD) (B : Vec Ideal S100000x1000 .f32)
    (hB : ∀ (P : Fin 100000) (q : Fin 1000), B (ix2 P q) = V c main_v85 (ix2 (0 : Fin 1) q))
    (d : DotDims S100000x8 S8x1000 S100000x1000) (hd : d = DotDims.plain 100000 8 1000) :
    (dat2 V c).arrAt 3 cfg2.N = addf (F := Ideal) (Host.dotGeneral (F := Ideal) (φ₁ := .f32) (φ₂ := .f32) d none (V c main_v84) (V c main_arg6)) B :=
  (dat2 V c).arrAt_eq_of_cover 3 _ (fun t _ => flushed2 V c B hB d hd t) cover2

end Cert.KernelIdeal.Tiles

end
-- ==== Proof.Fold.lean ====
/-
  The kernel program's result, read through the fold of its segments.

  The program computes, in order: the inverse square roots of the node degrees from the edge list; the node features
  times the first weight (a tiled product); the normalised neighbour aggregation of that, plus the first bias; the
  rectified result times the second weight (a tiled product); the same aggregation of that, plus the second bias; and
  that times the classifier weight plus the bias row (a tiled product).  Everything outside the three products is the
  same sequence of host operations as the reference's, so each buffer the later segments read is carried through the
  fold and named by the reference's own stage of the arguments: a host stretch leaves its operations' composed
  results, a tiled product leaves the whole product in its output array and every other buffer as it found it.  The
  last boundary at the result buffer is then the reference's last stage.  The only place where the two programs spell a
  step differently is the bias row: the kernel reshapes the 1000-vector to one row, the reference broadcasts it to one
  row; both read the vector's entry q at (0, q).
-/
import proofs.«127851_j47218870452270_1_alg».proof.Proof.Gen.KernelIdeal.Frame
import proofs.«127851_j47218870452270_1_alg».proof.Proof.Gen.ReferenceIdeal.Read
import proofs.«127851_j47218870452270_1_alg».proof.Proof.LibPlainDot
import proofs.«127851_j47218870452270_1_alg».proof.Proof.Tile0
import proofs.«127851_j47218870452270_1_alg».proof.Proof.Tile1
import proofs.«127851_j47218870452270_1_alg».proof.Proof.Tile2
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx
open Cert.ReferenceIdeal.Read (val_main_v1 val_main_v3 val_main_v10 val_main_v11 val_main_v47 val_main_v49 val_main_v85 val_main_v87
  val_main_v88 val_main_v89 val_main_call0_v0 val_main_call0_cst)

variable (m : (ℓ : Loc nD τ sig) → Buf (Elt Ideal) ℓ) (ρ : Dev nD → PrngReg) (c : Dev nD)

/-! ## After the first host stretch: the edge lists, the inverse square root degrees, the arguments -/

theorem at1_v1 : W1 m ρ c (Proc.devRef .tc main_v1) = val_main_v1 (F := Ideal) (m ((c : Thread nD τ).loc main_arg1)) := by
  show StableHlo.after hostOps0 (W0 m ρ c) (Proc.devRef .tc main_v1) = _
  after_results <;> rfl
theorem at1_v3 : W1 m ρ c (Proc.devRef .tc main_v3) = val_main_v3 (F := Ideal) (m ((c : Thread nD τ).loc main_arg1)) := by
  show StableHlo.after hostOps0 (W0 m ρ c) (Proc.devRef .tc main_v3) = _
  after_results <;> rfl
theorem at1_v10 : W1 m ρ c (Proc.devRef .tc main_v10) = val_main_v10 (F := Ideal) (m ((c : Thread nD τ).loc main_arg1)) := by
  show StableHlo.after hostOps0 (W0 m ρ c) (Proc.devRef .tc main_v10) = _
  after_results <;> rfl
theorem at1_arg0 : W1 m ρ c (Proc.devRef .tc main_arg0) = (m ((c : Thread nD τ).loc main_arg0)) := by
  show StableHlo.after hostOps0 (W0 m ρ c) (Proc.devRef .tc main_arg0) = _
  after_results <;> rfl
theorem at1_arg2 : W1 m ρ c (Proc.devRef .tc main_arg2) = (m ((c : Thread nD τ).loc main_arg2)) := by
  show StableHlo.after hostOps0 (W0 m ρ c) (Proc.devRef .tc main_arg2) = _
  after_results <;> rfl
theorem at1_arg3 : W1 m ρ c (Proc.devRef .tc main_arg3) = (m ((c : Thread nD τ).loc main_arg3)) := by
  show StableHlo.after hostOps0 (W0 m ρ c) (Proc.devRef .tc main_arg3) = _
  after_results <;> rfl
theorem at1_arg4 : W1 m ρ c (Proc.devRef .tc main_arg4) = (m ((c : Thread nD τ).loc main_arg4)) := by
  show StableHlo.after hostOps0 (W0 m ρ c) (Proc.devRef .tc main_arg4) = _
  after_results <;> rfl
theorem at1_arg5 : W1 m ρ c (Proc.devRef .tc main_arg5) = (m ((c : Thread nD τ).loc main_arg5)) := by
  show StableHlo.after hostOps0 (W0 m ρ c) (Proc.devRef .tc main_arg5) = _
  after_results <;> rfl
theorem at1_arg6 : W1 m ρ c (Proc.devRef .tc main_arg6) = (m ((c : Thread nD τ).loc main_arg6)) := by
  show StableHlo.after hostOps0 (W0 m ρ c) (Proc.devRef .tc main_arg6) = _
  after_results <;> rfl
theorem at1_arg7 : W1 m ρ c (Proc.devRef .tc main_arg7) = (m ((c : Thread nD τ).loc main_arg7)) := by
  show StableHlo.after hostOps0 (W0 m ρ c) (Proc.devRef .tc main_arg7) = _
  after_results <;> rfl

/-! ## After the first tiled product -/

/-- The first product's record in the reference is the plain 100000 x 2 by 2 x 16 one. -/
theorem refDot0_plain : Cert.ReferenceIdeal.dot_S100000x2_S2x16_S100000x16_1_0_0_1_n_n = DotDims.plain 100000 2 16 :=
  PlainDot.eq_plain _ rfl rfl rfl rfl rfl rfl

theorem at2_v11 : W2 m ρ c (Proc.devRef .tc main_v11) = val_main_v11 (F := Ideal) (m ((c : Thread nD τ).loc main_arg0)) (m ((c : Thread nD τ).loc main_arg2)) := by
  refine (W2_arr m ρ c 2).trans ?_
  rw [Tiles.array0 (V1 m ρ) c _ refDot0_plain]
  show Host.dotGeneral (F := Ideal) (φ₁ := .f32) (φ₂ := .f32) _ none (W1 m ρ c (Proc.devRef .tc main_arg0)) (W1 m ρ c (Proc.devRef .tc main_arg2)) = _
  rw [at1_arg0, at1_arg2]
  rfl
theorem at2_v1 : W2 m ρ c (Proc.devRef .tc main_v1) = val_main_v1 (F := Ideal) (m ((c : Thread nD τ).loc main_arg1)) :=
  (W2_of_ne m ρ c main_v1 (by decide)).trans (at1_v1 m ρ c)
theorem at2_v3 : W2 m ρ c (Proc.devRef .tc main_v3) = val_main_v3 (F := Ideal) (m ((c : Thread nD τ).loc main_arg1)) :=
  (W2_of_ne m ρ c main_v3 (by decide)).trans (at1_v3 m ρ c)
theorem at2_v10 : W2 m ρ c (Proc.devRef .tc main_v10) = val_main_v10 (F := Ideal) (m ((c : Thread nD τ).loc main_arg1)) :=
  (W2_of_ne m ρ c main_v10 (by decide)).trans (at1_v10 m ρ c)
theorem at2_arg3 : W2 m ρ c (Proc.devRef .tc main_arg3) = (m ((c : Thread nD τ).loc main_arg3)) :=
  (W2_of_ne m ρ c main_arg3 (by decide)).trans (at1_arg3 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)

/-! ## After the second host stretch: the first aggregation -/

theorem at3_v47 : W3 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v47) = _
  after_results_simp
  rw [at2_v1, at2_v3, at2_v10, at2_v11, at2_arg3]
  rfl
theorem at3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  exact at2_v1 m ρ c
theorem at3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  exact at2_v3 m ρ c
theorem at3_v10 : W3 m ρ c (Proc.devRef .tc main_v10) = val_main_v10 (F := Ideal) (m ((c : Thread nD τ).loc main_arg1)) := by
  show StableHlo.after hostOps1 (W2 m ρ c) (Proc.devRef .tc main_v10) = _
  after_results_simp
  exact at2_v10 m ρ c
theorem at3_arg4 : W3 m ρ c (Proc.devRef .tc main_arg4) = (m ((c : Thread nD τ).loc main_arg4)) := by
  show StableHlo.after hostOps1 (W2 m ρ c) (Proc.devRef .tc main_arg4) = _
  after_results_simp
  exact at2_arg4 m ρ c
theorem at3_arg5 : W3 m ρ c (Proc.devRef .tc main_arg5) = (m ((c : Thread nD τ).loc main_arg5)) := by
  show StableHlo.after hostOps1 (W2 m ρ c) (Proc.devRef .tc main_arg5) = _
  after_results_simp
  exact at2_arg5 m ρ c
theorem at3_arg6 : W3 m ρ c (Proc.devRef .tc main_arg6) = (m ((c : Thread nD τ).loc main_arg6)) := by
  show StableHlo.after hostOps1 (W2 m ρ c) (Proc.devRef .tc main_arg6) = _
  after_results_simp
  exact at2_arg6 m ρ c
theorem at3_arg7 : W3 m ρ c (Proc.devRef .tc main_arg7) = (m ((c : Thread nD τ).loc main_arg7)) := by
  show StableHlo.after hostOps1 (W2 m ρ c) (Proc.devRef .tc main_arg7) = _
  after_results_simp
  exact at2_arg7 m ρ c

/-! ## After the second tiled product -/

/-- The second product's record in the reference is the plain 100000 x 16 by 16 x 8 one. -/
theorem refDot1_plain : Cert.ReferenceIdeal.dot_S100000x16_S16x8_S100000x8_1_0_0_1_n_n = DotDims.plain 100000 16 8 :=
  PlainDot.eq_plain _ rfl rfl rfl rfl rfl rfl

/-- The reference's array of zeros (the scalar zero broadcast to 100000 x 16) reads zero everywhere. -/
theorem zeros_apply (i : Cert.ReferenceIdeal.S100000x16.Idx) : val_main_call0_v0 (F := Ideal) i = Ideal.ofBits .f32 0x00000000#32 := rfl

theorem at4_v48 : W4 m ρ c (Proc.devRef .tc main_v48) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ?_
  rw [Tiles.array1 (V3 m ρ) c (val_main_call0_v0 (F := Ideal)) zeros_apply _ refDot1_plain]
  show Host.dotGeneral (F := Ideal) (φ₁ := .f32) (φ₂ := .f32) _ none
    (maximumf (F := Ideal) (W3 m ρ c (Proc.devRef .tc main_v47)) (val_main_call0_v0 (F := Ideal))) (W3 m ρ c (Proc.devRef .tc main_arg4)) = _
  rw [at3_v47, at3_arg4]
  rfl
theorem at4_v1 : W4 m ρ c (Proc.devRef .tc main_v1) = val_main_v1 (F := Ideal) (m ((c : Thread nD τ).loc main_arg1)) :=
  (W4_of_ne m ρ c main_v1 (by decide)).trans (at3_v1 m ρ c)
theorem at4_v3 : W4 m ρ c (Proc.devRef .tc main_v3) = val_main_v3 (F := Ideal) (m ((c : Thread nD τ).loc main_arg1)) :=
  (W4_of_ne m ρ c main_v3 (by decide)).trans (at3_v3 m ρ c)
theorem at4_v10 : W4 m ρ c (Proc.devRef .tc main_v10) = val_main_v10 (F := Ideal) (m ((c : Thread nD τ).loc main_arg1)) :=
  (W4_of_ne m ρ c main_v10 (by decide)).trans (at3_v10 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-! ## After the third host stretch: the second aggregation, and the bias as one row -/

theorem at5_v84 : W5 m ρ c (Proc.devRef .tc main_v84) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v84) = _
  after_results_simp
  rw [at4_v1, at4_v3, at4_v10, at4_v48, at4_arg5]
  rfl
theorem at5_v85 : W5 m ρ c (Proc.devRef .tc main_v85) = shapeCast S1x1000 (m ((c : Thread nD τ).loc main_arg7)) shapeCasts_S1000_S1x1000 := by
  show StableHlo.after hostOps2 (W4 m ρ c) (Proc.devRef .tc main_v85) = _
  after_results_simp
  rw [at4_arg7]
  rfl
theorem at5_arg6 : W5 m ρ c (Proc.devRef .tc main_arg6) = (m ((c : Thread nD τ).loc main_arg6)) := by
  show StableHlo.after hostOps2 (W4 m ρ c) (Proc.devRef .tc main_arg6) = _
  after_results_simp
  exact at4_arg6 m ρ c

/-! ## After the third tiled product: the result -/

/-- The third product's record in the reference is the plain 100000 x 8 by 8 x 1000 one. -/
theorem refDot2_plain : Cert.ReferenceIdeal.dot_S100000x8_S8x1000_S100000x1000_1_0_0_1_n_n = DotDims.plain 100000 8 1000 :=
  PlainDot.eq_plain _ rfl rfl rfl rfl rfl rfl

/-- The reference's bias array (the 1000-vector broadcast to one row, then to every row) reads, at (P, q), what the
    kernel's bias row (the vector reshaped to one row) reads at (0, q): the vector's entry q. -/
theorem bias_rows (P : Fin 100000) (q : Fin 1000) :
    val_main_v88 (F := Ideal) (m ((c : Thread nD τ).loc main_arg7)) (ix2 P q) = V5 m ρ c main_v85 (ix2 (0 : Fin 1) q) := by
  show _ = W5 m ρ c (Proc.devRef .tc main_v85) (ix2 (0 : Fin 1) q)
  rw [at5_v85, shapeCast_a_1a_apply, Cert.ReferenceIdeal.Read.val_main_v88_apply, Cert.ReferenceIdeal.Read.val_main_v87_apply]
  refine congrArg (m ((c : Thread nD τ).loc main_arg7)) (funext fun a => ?_)
  match a with
  | ⟨0, _⟩ => rfl

/-- The result buffer at the last boundary is the reference's last stage of the arguments. -/
theorem result_eq : W6 m ρ c (Proc.devRef .tc main_v86)
    = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ?_
  rw [Tiles.array2 (V5 m ρ) c (val_main_v88 (F := Ideal) (m ((c : Thread nD τ).loc main_arg7))) (bias_rows m ρ c) _ refDot2_plain]
  show addf (F := Ideal) (Host.dotGeneral (F := Ideal) (φ₁ := .f32) (φ₂ := .f32) _ none
    (W5 m ρ c (Proc.devRef .tc main_v84)) (W5 m ρ c (Proc.devRef .tc main_arg6))) (val_main_v88 (F := Ideal) (m ((c : Thread nD τ).loc main_arg7))) = _
  rw [at5_v84, at5_arg6]
  rfl

end Cert.KernelIdeal.Fold

end
-- ==== Proof.lean ====
/-
  A two-layer graph convolution followed by a linear classifier, computed by three row-tiled matrix products among
  host operations, against the same network written with whole matrix products.

  Both programs compute the inverse square root degrees from the edge list, then twice a matrix product followed by
  the normalised neighbour aggregation and a bias (rectified between the two layers), then a product with the
  classifier weight plus its bias.  The gathers, scatters and elementwise steps are the same host operations in both
  programs.  The kernel program differs in forming each product tile by tile over blocks of rows — each tile narrowed
  to bfloat16 first, which is the identity on the extended reals — and in folding the rectification into the second
  product and the bias row into the third.  A block of rows of a product is the product of the block of rows
  (Proof/LibPlainDot.lean, Proof/Tile0.lean, Tile1.lean, Tile2.lean), the tiles cover every row, and the rest is carried
  through the program segment by segment (Proof/KernelRun.lean, Proof/Fold.lean); so the two results are one function
  of the arguments, with no use of the arguments' finiteness.  The idealized kernel is the kernel's own text read on
  the extended reals: nothing was rewritten, so there is nothing to preserve.
-/
import proofs.«127851_j47218870452270_1_alg».proof.Defs
import proofs.«127851_j47218870452270_1_alg».proof.Proof.Gen.Kernel
import proofs.«127851_j47218870452270_1_alg».proof.Proof.Gen.Kernel.Skeleton
import proofs.«127851_j47218870452270_1_alg».proof.Proof.Gen.Kernel.Launch
import proofs.«127851_j47218870452270_1_alg».proof.Proof.Gen.Kernel.Points
import proofs.«127851_j47218870452270_1_alg».proof.Proof.Gen.Kernel.Frame
import proofs.«127851_j47218870452270_1_alg».proof.Proof.Gen.KernelIdeal
import proofs.«127851_j47218870452270_1_alg».proof.Proof.Gen.KernelIdeal.Skeleton
import proofs.«127851_j47218870452270_1_alg».proof.Proof.Gen.KernelIdeal.Launch
import proofs.«127851_j47218870452270_1_alg».proof.Proof.Gen.KernelIdeal.Points
import proofs.«127851_j47218870452270_1_alg».proof.Proof.Gen.KernelIdeal.Frame
import proofs.«127851_j47218870452270_1_alg».proof.Proof.Gen.ReferenceIdeal
import proofs.«127851_j47218870452270_1_alg».proof.Proof.Gen.Pre_finite_inputs
import proofs.«127851_j47218870452270_1_alg».proof.Proof.Gen.ReferenceIdeal.Run
import proofs.«127851_j47218870452270_1_alg».proof.Proof.Gen.ReferenceIdeal.Read
import proofs.«127851_j47218870452270_1_alg».proof.Proof.KernelRun
import proofs.«127851_j47218870452270_1_alg».proof.Proof.Fold
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference, a line of host operations, runs to the end and leaves its arguments as launched. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading on the extended reals. -/
theorem preserves : Cert.preserves_Kernel_KernelIdeal := trivial

/-- From memories that agree on the arguments both programs end with the same result: the reference's last stage of
    the arguments, which the kernel program's fold reaches through its three tiled products. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ c), (h c).2⟩) (Cert.KernelIdeal.RunValue.run_fold m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v89_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
